-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x4096 : Shape := ⟨3, ![64, 256, 4096]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S64x256x4096 : S_.BroadcastsInDim S64x256x4096 (![] : Fin 0 → Fin S64x256x4096.rank)
  reducesTo_S64x256x4096_S_d0_1_2 : S64x256x4096.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x4096 .f32) (main_arg1 : FVec F S16x256 .f32) (main_arg2 : FVec F S16 .f32) (main_arg3 : FVec F S256x16 .f32) (main_arg4 : FVec F S256 .f32) : IVec S_ 1 :=
  let main_v0 : FVec F S64x256x4096 .f32 := Host.absf main_arg0
  let main_cst : FVec F S_ .f32 := constant S_ .f32 0x7F800000#32
  let main_v1 : FVec F S64x256x4096 .f32 := broadcastInDim S64x256x4096 ![] bcast_S_S64x256x4096 main_cst
  let main_v2 : IVec S64x256x4096 1 := cmpf .olt main_v0 main_v1
  let main_c : IVec S_ 1 := constantI S_ 1 1#1
  let main_v3 : IVec S_ 1 := (fun x v => Host.reduce IntOp.andi x v reducesTo_S64x256x4096_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S64x256x4096 : Shape := ⟨3, ![64, 256, 4096]⟩
abbrev S16x256 : Shape := ⟨2, ![16, 256]⟩
abbrev S16 : Shape := ⟨1, ![16]⟩
abbrev S256x16 : Shape := ⟨2, ![256, 16]⟩
abbrev S256 : Shape := ⟨1, ![256]⟩
abbrev S64x256 : Shape := ⟨2, ![64, 256]⟩
abbrev S8x256x2048 : Shape := ⟨3, ![8, 256, 2048]⟩
abbrev S8x256 : Shape := ⟨2, ![8, 256]⟩
abbrev S8x16 : Shape := ⟨2, ![8, 16]⟩
abbrev S1x16 : Shape := ⟨2, ![1, 16]⟩
abbrev S1x256 : Shape := ⟨2, ![1, 256]⟩
abbrev S8x256x1024 : Shape := ⟨3, ![8, 256, 1024]⟩
abbrev S8x256x1 : Shape := ⟨3, ![8, 256, 1]⟩

abbrev nBuf : Space → Nat
  | .hbm => 7
  | .vmem => 14
  | .smem => 0
  | _ => 0

abbrev bufTy : (tb : Table) → Fin (tcTables nBuf tb) → BufTy
  | .hbm, ⟨0, _⟩ => ⟨S64x256x4096, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S64x256, .f32⟩
  | .hbm, ⟨6, _⟩ => ⟨S64x256x4096, .f32⟩
  | .local _ .vmem, ⟨0, _⟩ => ⟨S8x256x2048, .f32⟩
  | .local _ .vmem, ⟨1, _⟩ => ⟨S8x256x2048, .f32⟩
  | .local _ .vmem, ⟨2, _⟩ => ⟨S16x256, .f32⟩
  | .local _ .vmem, ⟨3, _⟩ => ⟨S16, .f32⟩
  | .local _ .vmem, ⟨4, _⟩ => ⟨S256x16, .f32⟩
  | .local _ .vmem, ⟨5, _⟩ => ⟨S256, .f32⟩
  | .local _ .vmem, ⟨6, _⟩ => ⟨S8x256, .f32⟩
  | .local _ .vmem, ⟨7, _⟩ => ⟨S8x256, .f32⟩
  | .local _ .vmem, ⟨8, _⟩ => ⟨S8x256x1024, .f32⟩
  | .local _ .vmem, ⟨9, _⟩ => ⟨S8x256x1024, .f32⟩
  | .local _ .vmem, ⟨10, _⟩ => ⟨S8x256, .f32⟩
  | .local _ .vmem, ⟨11, _⟩ => ⟨S8x256, .f32⟩
  | .local _ .vmem, ⟨12, _⟩ => ⟨S8x256x1024, .f32⟩
  | .local _ .vmem, ⟨13, _⟩ => ⟨S8x256x1024, .f32⟩
  | _, _ => ⟨S64x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x2048_S8x256x2048_0_0_0 : ∀ a, (![0, 0, 0] : Fin 3 → Nat) a + S8x256x2048.size a ≤ S8x256x2048.size a
  h_S8x256x2048 : 0 < S8x256x2048.numel
  reduces_S8x256x2048_S8x256 : S8x256x2048.Reduces [2] S8x256
  inb_S16x256_S16x256_0_0 : ∀ a, (![0, 0] : Fin 2 → Nat) a + S16x256.size a ≤ S16x256.size a
  h_S16x256 : 0 < S16x256.numel
  inb_S16_S16_0 : ∀ a, (![0] : Fin 1 → Nat) a + S16.size a ≤ S16.size a
  h_S16 : 0 < S16.numel
  shapeCasts_S16_S1x16 : S16.ShapeCasts S1x16
  broadcasts_S1x16_S8x16 : S1x16.Broadcasts S8x16
  inb_S256x16_S256x16_0_0 : ∀ a, (![0, 0] : Fin 2 → Nat) a + S256x16.size a ≤ S256x16.size a
  h_S256x16 : 0 < S256x16.numel
  inb_S256_S256_0 : ∀ a, (![0] : Fin 1 → Nat) a + S256.size a ≤ S256.size a
  h_S256 : 0 < S256.numel
  shapeCasts_S256_S1x256 : S256.ShapeCasts S1x256
  broadcasts_S1x256_S8x256 : S1x256.Broadcasts S8x256
  shapeCasts_S8x256_S8x256x1 : S8x256.ShapeCasts S8x256x1
  inb_S8x256x1024_S8x256x1024_0_0_0 : ∀ a, (![0, 0, 0] : Fin 3 → Nat) a + S8x256x1024.size a ≤ S8x256x1024.size a
  h_S8x256x1024 : 0 < S8x256x1024.numel
  broadcasts_S8x256x1_S8x256x1024 : S8x256x1.Broadcasts S8x256x1024
  dot_S8x256_S16x256_S8x16_1_1_0_0_n_n_wf : DotDims.WF S8x256 S16x256 S8x16 [1] [1] [0] [0] [] []
  dot_S8x16_S256x16_S8x256_1_1_0_0_n_n_wf : DotDims.WF S8x16 S256x16 S8x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x2048.size a ≤ S64x256x4096.size a
  hwx0_0 : ∀ i : grid0.Coords, EltTy.bits .f32 = 32 ∨ (Rect.block (s := S64x256x4096) S8x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S64x256.size a
  hwx0_5 : ∀ i : grid0.Coords, EltTy.bits .f32 = 32 ∨ (Rect.block (s := S64x256) S8x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S64x256x4096.size a
  hwx1_0 : ∀ i : grid1.Coords, EltTy.bits .f32 = 32 ∨ (Rect.block (s := S64x256x4096) S8x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S64x256.size a
  hwx1_1 : ∀ i : grid1.Coords, EltTy.bits .f32 = 32 ∨ (Rect.block (s := S64x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x1024.size a ≤ S64x256x4096.size a
  hwx1_2 : ∀ i : grid1.Coords, EltTy.bits .f32 = 32 ∨ (Rect.block (s := S64x256x4096) S8x256x1024.size (cc1_transform_2 i) (hinb1_2 i)).WholeWords (EltTy.packing .f32)

variable [Facts₀]

def dot_S8x256_S16x256_S8x16_1_1_0_0_n_n : DotDims S8x256 S16x256 S8x16 where
  lhsContracting := [1]
  rhsContracting := [1]
  lhsNonContracting := [0]
  rhsNonContracting := [0]
  lhsBatch := []
  rhsBatch := []
  wf := dot_S8x256_S16x256_S8x16_1_1_0_0_n_n_wf
def dot_S8x16_S256x16_S8x256_1_1_0_0_n_n : DotDims S8x16 S256x16 S8x256 where
  lhsContracting := [1]
  rhsContracting := [1]
  lhsNonContracting := [0]
  rhsNonContracting := [0]
  lhsBatch := []
  rhsBatch := []
  wf := dot_S8x16_S256x16_S8x256_1_1_0_0_n_n_wf

abbrev win0_0 : Pipeline.Window sig grid0 :=
  Pipeline.Window.ofSpec (Memref.whole main_arg0) S8x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x256x4096 : Shape := ⟨3, ![64, 256, 4096]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩
abbrev S64x256 : Shape := ⟨2, ![64, 256]⟩
abbrev S64x16 : Shape := ⟨2, ![64, 16]⟩
abbrev S1x16 : Shape := ⟨2, ![1, 16]⟩
abbrev S1x256 : Shape := ⟨2, ![1, 256]⟩
abbrev S64x256x1 : Shape := ⟨3, ![64, 256, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x256x4096, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S_, .f32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S64x16, .f32⟩
  | .hbm, ⟨11, _⟩ => ⟨S1x16, .f32⟩
  | .hbm, ⟨12, _⟩ => ⟨S64x16, .f32⟩
  | .hbm, ⟨13, _⟩ => ⟨S64x16, .f32⟩
  | .hbm, ⟨14, _⟩ => ⟨S_, .f32⟩
  | .hbm, ⟨15, _⟩ => ⟨S64x16, .f32⟩
  | .hbm, ⟨16, _⟩ => ⟨S64x16, .f32⟩
  | .hbm, ⟨17, _⟩ => ⟨S64x256, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S64x256, .f32⟩
  | .hbm, ⟨23, _⟩ => ⟨S_, .f32⟩
  | .hbm, ⟨24, _⟩ => ⟨S64x256, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S64x256, .f32⟩
  | .hbm, ⟨29, _⟩ => ⟨S64x256x1, .f32⟩
  | .hbm, ⟨30, _⟩ => ⟨S64x256x4096, .f32⟩
  | .hbm, ⟨31, _⟩ => ⟨S64x256x4096, .f32⟩
  | _, _ => ⟨S64x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S64x256x4096_S64x256_d2 : S64x256x4096.ReducesTo [2] S64x256
  h_S_ : 0 < S_.numel
  bcast_S_S64x256 : S_.BroadcastsInDim S64x256 (![] : Fin 0 → Fin S64x256.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1_0_1 : S64x256.BroadcastsInDim S64x256x1 (![0, 1] : Fin 2 → Fin S64x256x1.rank)
  bcast_S64x256x1_S64x256x4096_0_1_2 : S64x256x1.BroadcastsInDim S64x256x4096 (![0, 1, 2] : Fin 3 → Fin S64x256x4096.rank)
  dot_S64x256_S16x256_S64x16_1_1_0_0_n_n_wf : DotDims.WF S64x256 S16x256 S64x16 [1] [1] [0] [0] [] []
  dot_S64x16_S256x16_S64x256_1_1_0_0_n_n_wf : DotDims.WF S64x16 S256x16 S64x256 [1] [1] [0] [0] [] []

variable [Facts₀]

def dot_S64x256_S16x256_S64x16_1_1_0_0_n_n : DotDims S64x256 S16x256 S64x16 where
  lhsContracting := [1]
  rhsContracting := [1]
  lhsNonContracting := [0]
  rhsNonContracting := [0]
  lhsBatch := []
  rhsBatch := []
  wf := dot_S64x256_S16x256_S64x16_1_1_0_0_n_n_wf
def dot_S64x16_S256x16_S64x256_1_1_0_0_n_n : DotDims S64x16 S256x16 S64x256 where
  lhsContracting := [1]
  rhsContracting := [1]
  lhsNonContracting := [0]
  rhsNonContracting := [0]
  lhsBatch := []
  rhsBatch := []
  wf := dot_S64x16_S256x16_S64x256_1_1_0_0_n_n_wf

class Facts : Prop extends Facts₀ where

variable [Facts]
-- ==== Proof.Spec.lean ====
/-
  The squeeze-and-excitation gate as ONE function of the five argument arrays, over the extended reals.

  For x : [64, 256, 4096], w1 : [16, 256], b1 : [16], w2 : [256, 16], b2 : [256]:

    pooled (b, c)    = (∑ l, x (b, c, l)) / 4096                        the mean over the last axis
    hidden (b, r)    = max (∑ k, pooled (b, k) · w1 (r, k) + b1 r) 0    first dense layer, then relu
    logit  (b, c)    = ∑ r, hidden (b, r) · w2 (c, r) + b2 c            second dense layer
    gate   (b, c)    = 1 / (1 + e^(−logit (b, c)))                      the logistic function
    scaled (b, c, l) = x (b, c, l) · gate (b, c)                        every channel scaled by its gate

  Two laws join a computation that sums the last axis in two halves and multiplies by 2⁻¹² to this one:
  a sum over 4096 coordinates is the sum over the first 2048 plus the sum over the last 2048 (addition of extended
  reals is commutative and associative, so no finiteness is asked), and the quotient by the real 4096 is the product
  with the real 1/4096 on every extended real.
-/
import Idealize.ShloMosaic.PureOps.Ideal
import Idealize.ShloMosaic.PureOps.Ideal.Laws
import Idealize.ShloMosaic.Lib.ValueIdx

noncomputable section

namespace Cert.SqueezeExcite

open Idealize.ShloMosaic Idealize.ShloMosaic.ValueIdx
open scoped BigOperators

/-! ## The three float patterns whose values the laws use -/

/-- The pattern of `1.0` denotes the real one. -/
theorem ofBits_one : Ideal.ofBits .f32 0x3F800000#32 = 1 := by
  simp [Ideal.ofBits, Ideal.ieee, -EReal.coe_mul]; norm_num

/-- The pattern of `4096.0` denotes the real 4096. -/
theorem ofBits_4096 : Ideal.ofBits .f32 0x45800000#32 = ((4096 : ℝ) : EReal) := by
  simp [Ideal.ofBits, Ideal.ieee, -EReal.coe_mul]; norm_num

/-- The pattern of `2.44140625e-4` denotes the real 1/4096 = 2⁻¹², exactly. -/
theorem ofBits_inv_4096 : Ideal.ofBits .f32 0x39800000#32 = ((1 / 4096 : ℝ) : EReal) := by
  simp [Ideal.ofBits, Ideal.ieee, -EReal.coe_mul]; norm_num

/-! ## The function -/

abbrev SX : Shape := ⟨3, ![64, 256, 4096]⟩
abbrev SW1 : Shape := ⟨2, ![16, 256]⟩
abbrev SB1 : Shape := ⟨1, ![16]⟩
abbrev SW2 : Shape := ⟨2, ![256, 16]⟩
abbrev SB2 : Shape := ⟨1, ![256]⟩
abbrev SG : Shape := ⟨2, ![64, 256]⟩

/-- The mean of channel `c` of batch entry `b` over the last axis. -/
def pooled (x : SX.Idx → EReal) (b : Fin 64) (c : Fin 256) : EReal :=
  Ideal.div (∑ l : Fin 4096, x (ix3 b c l)) (Ideal.ofBits .f32 0x45800000#32)

/-- The first dense layer, then relu. -/
def hidden (x : SX.Idx → EReal) (w1 : SW1.Idx → EReal) (b1 : SB1.Idx → EReal) (b : Fin 64) (r : Fin 16) : EReal :=
  max (∑ k : Fin 256, pooled x b k * w1 (ix2 r k) + b1 (ix1 r)) (Ideal.ofBits .f32 0x00000000#32)

/-- The second dense layer. -/
def logit (x : SX.Idx → EReal) (w1 : SW1.Idx → EReal) (b1 : SB1.Idx → EReal) (w2 : SW2.Idx → EReal) (b2 : SB2.Idx → EReal)
    (b : Fin 64) (c : Fin 256) : EReal :=
  ∑ r : Fin 16, hidden x w1 b1 b r * w2 (ix2 c r) + b2 (ix1 c)

/-- The gate of channel `c` of batch entry `b`: the logistic function of the second layer's output. -/
def gate (x : SX.Idx → EReal) (w1 : SW1.Idx → EReal) (b1 : SB1.Idx → EReal) (w2 : SW2.Idx → EReal) (b2 : SB2.Idx → EReal)
    (b : Fin 64) (c : Fin 256) : EReal :=
  Ideal.logistic (logit x w1 b1 w2 b2 b c)

/-- The gates as a [64, 256] array. -/
def gates (x : SX.Idx → EReal) (w1 : SW1.Idx → EReal) (b1 : SB1.Idx → EReal) (w2 : SW2.Idx → EReal) (b2 : SB2.Idx → EReal) :
    SG.Idx → EReal :=
  fun j => gate x w1 b1 w2 b2 ⟨(j 0).val, (j 0).isLt⟩ ⟨(j 1).val, (j 1).isLt⟩

/-- The result: every entry of `x` times its channel's gate. -/
def scaled (x : SX.Idx → EReal) (w1 : SW1.Idx → EReal) (b1 : SB1.Idx → EReal) (w2 : SW2.Idx → EReal) (b2 : SB2.Idx → EReal) :
    SX.Idx → EReal :=
  fun i => x i * gate x w1 b1 w2 b2 ⟨(i 0).val, (i 0).isLt⟩ ⟨(i 1).val, (i 1).isLt⟩

theorem gates_ix2 (x : SX.Idx → EReal) (w1 : SW1.Idx → EReal) (b1 : SB1.Idx → EReal) (w2 : SW2.Idx → EReal) (b2 : SB2.Idx → EReal)
    (b : Fin 64) (c : Fin 256) : gates x w1 b1 w2 b2 (ix2 b c) = gate x w1 b1 w2 b2 b c := rfl

theorem scaled_ix3 (x : SX.Idx → EReal) (w1 : SW1.Idx → EReal) (b1 : SB1.Idx → EReal) (w2 : SW2.Idx → EReal) (b2 : SB2.Idx → EReal)
    (b : Fin 64) (c : Fin 256) (l : Fin 4096) :
    scaled x w1 b1 w2 b2 (ix3 b c l) = x (ix3 b c l) * gate x w1 b1 w2 b2 b c := rfl

/-! ## The two laws -/

/-- A sum over 4096 coordinates is the sum over the first 2048 plus the sum over the last 2048. -/
theorem sum_halves (f : Fin 4096 → EReal) :
    (∑ l : Fin 2048, f ⟨l.val, Nat.lt_of_lt_of_le l.isLt (by decide)⟩)
      + ∑ l : Fin 2048, f ⟨2048 + l.val, by have := l.isLt; omega⟩ = ∑ l : Fin 4096, f l :=
  (Fin.sum_univ_add (M := EReal) (a := 2048) (b := 2048) f).symm

/-- The product with 2⁻¹² is the quotient by 4096, on every extended real. -/
theorem mul_inv_4096 (s : EReal) :
    s * Ideal.ofBits .f32 0x39800000#32 = Ideal.div s (Ideal.ofBits .f32 0x45800000#32) := by
  rw [ofBits_inv_4096, ofBits_4096, Ideal.div_coe (by norm_num : (4096 : ℝ) ≠ 0)]

/-- So the two half sums, accumulated from zero and multiplied by 2⁻¹², are the mean. -/
theorem pooled_of_halves (x : SX.Idx → EReal) (b : Fin 64) (c : Fin 256) :
    ((Ideal.ofBits .f32 0x00000000#32 + ∑ l : Fin 2048, x (ix3 b c ⟨l.val, Nat.lt_of_lt_of_le l.isLt (by decide)⟩))
        + ∑ l : Fin 2048, x (ix3 b c ⟨2048 + l.val, by have := l.isLt; omega⟩)) * Ideal.ofBits .f32 0x39800000#32
      = pooled x b c := by
  rw [Ideal.ofBits_zero_f32, zero_add, sum_halves (fun l => x (ix3 b c l)), mul_inv_4096]
  rfl

end Cert.SqueezeExcite

end
-- ==== Proof.RefValue.lean ====
/-
  The reference's result is the specification.  Read one operation at a time and at an index, the reference
  computes: the sum of a channel over the last axis from zero, divided by 4096; the first contraction against
  w1's rows plus b1, then the maximum with zero; the second contraction against w2's rows plus b2; the
  quotient 1 / (1 + e^(−·)), which is the logistic function by definition; and the product of every entry of x
  with its channel's gate.  Nothing here uses finiteness: the stages are the specification's own expressions once
  the zero the sum starts from is dropped and the pattern of 1.0 is read as one.
-/
import proofs.«121550_j5970004542268_2_alg».proof.Proof.Gen.ReferenceIdeal.Read
import proofs.«121550_j5970004542268_2_alg».proof.Proof.Spec

noncomputable section

namespace Cert.ReferenceIdeal.RefValue

open Cert.ReferenceIdeal Cert.ReferenceIdeal.Read Idealize.ShloMosaic Idealize.ShloMosaic.ValueIdx Cert.SqueezeExcite
open scoped BigOperators

variable (x0 : (⟨S64x256x4096, .f32⟩ : BufTy).Contents (Elt Ideal)) (x1 : (⟨S16x256, .f32⟩ : BufTy).Contents (Elt Ideal))
  (x2 : (⟨S16, .f32⟩ : BufTy).Contents (Elt Ideal)) (x3 : (⟨S256x16, .f32⟩ : BufTy).Contents (Elt Ideal))
  (x4 : (⟨S256, .f32⟩ : BufTy).Contents (Elt Ideal))

/-- The mean stage at (b, c): the channel's sum from zero over 4096. -/
theorem pooled_eq (b : Fin 64) (c : Fin 256) : val_main_v2 (F := Ideal) x0 (ix2 b c) = pooled x0 b c := by
  rw [val_main_v2_apply, val_main_v0_apply, val_main_v1_apply, val_main_cst_0_apply, val_main_cst_apply]
  simp only [Ideal.hostDivf_def, Ideal.ofBits_def]
  rw [Ideal.ofBits_zero_f32, zero_add]
  unfold pooled
  refine congrArg (fun s => Ideal.div s _) (Finset.sum_congr rfl fun l _ => congrArg x0 ?_)
  funext a
  match a with
  | ⟨0, _⟩ => rfl
  | ⟨1, _⟩ => rfl
  | ⟨2, _⟩ => rfl

/-- The relu stage at (b, r). -/
theorem hidden_eq (b : Fin 64) (r : Fin 16) : val_main_v7 (F := Ideal) x0 x1 x2 (ix2 b r) = hidden x0 x1 x2 b r := by
  have e1 : ∀ k : Fin 256, lidx_main_v3 (ix2 b r) k = ix2 b k := fun k => funext fun a => by
    match a with
    | ⟨0, _⟩ => rfl
    | ⟨1, _⟩ => rfl
  have e2 : ∀ k : Fin 256, ridx_main_v3 (ix2 b r) k = ix2 r k := fun k => funext fun a => by
    match a with
    | ⟨0, _⟩ => rfl
    | ⟨1, _⟩ => rfl
  have e3 : idx_main_v4 (idx_main_v5 (ix2 b r)) = ix1 r := funext fun a => by
    match a with
    | ⟨0, _⟩ => rfl
  rw [val_main_v7_apply, val_main_v6_apply, val_main_v3_apply, val_main_v5_apply, val_main_v4_apply,
    val_main_call0_v0_apply, val_main_call0_cst_apply]
  simp only [Ideal.maximumf_def, Ideal.addf_def, Ideal.ofBits_def, e1, e2, e3, pooled_eq]
  rfl

/-- The second layer's stage at (b, c). -/
theorem logit_eq (b : Fin 64) (c : Fin 256) :
    val_main_v11 (F := Ideal) x0 x1 x2 x3 x4 (ix2 b c) = logit x0 x1 x2 x3 x4 b c := by
  have e1 : ∀ k : Fin 16, lidx_main_v8 (ix2 b c) k = ix2 b k := fun k => funext fun a => by
    match a with
    | ⟨0, _⟩ => rfl
    | ⟨1, _⟩ => rfl
  have e2 : ∀ k : Fin 16, ridx_main_v8 (ix2 b c) k = ix2 c k := fun k => funext fun a => by
    match a with
    | ⟨0, _⟩ => rfl
    | ⟨1, _⟩ => rfl
  have e3 : idx_main_v9 (idx_main_v10 (ix2 b c)) = ix1 c := funext fun a => by
    match a with
    | ⟨0, _⟩ => rfl
  rw [val_main_v11_apply, val_main_v8_apply, val_main_v10_apply, val_main_v9_apply]
  simp only [Ideal.addf_def, e1, e2, e3, hidden_eq]
  rfl

/-- The quotient 1 / (1 + e^(−·)) of the second layer is the gate. -/
theorem gate_eq (b : Fin 64) (c : Fin 256) :
    val_main_v17 (F := Ideal) x0 x1 x2 x3 x4 (ix2 b c) = gate x0 x1 x2 x3 x4 b c := by
  rw [val_main_v17_apply, val_main_v16_apply, val_main_cst_2_apply, val_main_v15_apply, val_main_v14_apply,
    val_main_cst_1_apply, val_main_v13_apply, val_main_v12_apply, logit_eq]
  simp only [Ideal.hostDivf_def, Ideal.ofBits_def, Ideal.addf_def, Ideal.hostUnary_exp_def, Ideal.hostNegf_def,
    Ideal.negf_def, ofBits_one]
  rfl

/-- The reference's result array is the specification's. -/
theorem result_eq : val_main_v20 (F := Ideal) x0 x1 x2 x3 x4 = scaled x0 x1 x2 x3 x4 := by
  funext i
  obtain ⟨b, c, l, rfl⟩ : ∃ (b : Fin 64) (c : Fin 256) (l : Fin 4096), i = ix3 b c l := ⟨i 0, i 1, i 2, eq_ix3 i⟩
  have e1 : idx_main_v18 (idx_main_v19 (ix3 b c l)) = ix2 b c := funext fun a => by
    match a with
    | ⟨0, _⟩ => rfl
    | ⟨1, _⟩ => rfl
  rw [val_main_v20_apply, val_main_v19_apply, val_main_v18_apply, e1, gate_eq, scaled_ix3]
  rfl

end Cert.ReferenceIdeal.RefValue

end
-- ==== Proof.RunFold.lean ====
/-
  The run of the two kernels, read whole.

  @main is two kernel regions, one after the other, with no host operation between or around them.  Each region is
  entered from every unscoped buffer of the TensorCore held whole at known contents and left with the same buffers
  at what its write-backs made of them: from the launch memory the first region leaves its arrays at what its
  pipeline's write-backs fold to and every other buffer as it was, and the second region does the same from there.
  So every weakly fair execution of @main terminates, and in its final memory EVERY unscoped buffer of the
  TensorCore — the result array among them — holds what that fold of the two regions gives it.  The regions'
  segment records, their proof data, the fold and @main's reading as the run of the two segments are the generated
  ones; this theorem launches them and reads the final memory off the last thread state, keeping every buffer where
  the frame keeps the arguments only.
-/
import proofs.«121550_j5970004542268_2_alg».proof.Proof.Gen.KernelIdeal.Frame

set_option maxRecDepth 16384

noncomputable section

namespace Cert.KernelIdeal.RunFold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The user algebra at launch is the regions' cells and launch tokens, and nothing rides beside it. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

-- the launch theorem's implicit arguments are found by unifying its conclusion with this one, which takes unfolding
-- plain definitions in a metavariable's type
set_option backward.isDefEq.respectTransparency.types false in
/-- Every weakly fair execution of @main terminates, nothing faulting, and every unscoped buffer of every TensorCore
    ends at the fold of the two regions. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h => h)

/-- In particular a buffer that is not scoped, read at the TensorCore's reference. -/
theorem run_fold_at {r : PUnit × MemSt nD τ sig (Elt F)}
    (h : ∀ c : Dev nD, ∀ b ∈ Pipeline.ucRefs τ sig, r.2.mem (((c : Thread nD τ)).1, b) = W2 m ρ c b)
    (c : Dev nD) (b : Ref sig .tc) (hb : ¬ (Proc.devRef .tc b : DevRef τ sig).isScoped) :
    r.2.mem ((c.tc : Thread nD τ).loc b) = W2 m ρ c (Proc.devRef .tc b) :=
  h c _ (mem_uc b hb)

end Cert.KernelIdeal.RunFold

end
-- ==== Proof.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.GateBody.lean ====
/-
  The gate kernel's body at one grid point, read as values.

  The grid of the first kernel is (block of 8 batch entries, half of the last axis).  On the FIRST half the body
  zeroes its [8, 256] output block and adds the sums over the 2048 coordinates of its [8, 256, 2048] block of x:
  it leaves 0 + ∑ₗ x.  On the SECOND half it adds that half's sums to what the first half left and then, from the
  total s, leaves
      logistic (max ((s · 2⁻¹²) · w1ᵀ + b1) 0 · w2ᵀ + b2).
  First, for any float values: what each case's stores leave in the output block is the last store's payload, its
  loads reading the input blocks and the earlier store (`first_half`, `second_half`).  Then, over the extended reals,
  each payload at an entry (r, c): the lane reduction is the sum over the last coordinate, each matrix product into
  the zero accumulator contracts the last axis of both operands, a bias is one row repeated over the 8 rows.
-/
import proofs.«121550_j5970004542268_2_alg».proof.Proof.Gen.KernelIdeal.Frame
import proofs.«121550_j5970004542268_2_alg».proof.Proof.LibMatmulLastAxis
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.GateBody

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- FIRST HALF: the block is zeroed, read back, and the block of x is lane-summed into it. -/
theorem first_half (c : Dev nD) (i : grid0.Coords) (arg2 : Memref sig .tc .vmem S8x256x2048 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S8x256 .f32) (harg7 : arg7.IsWhole) (hc0 : cond0_0 i) (hc1 : ¬cond0_1 i)
    (x0 : Vec F S8x256x2048 .f32) (x1 : Vec F S16x256 .f32) (x2 : Vec F S16 .f32) (x3 : Vec F S256x16 .f32) (x4 : Vec F S256 .f32) :
    out0_A_5 c i arg2 harg2 arg3 harg3 arg4 harg4 arg5 harg5 arg6 harg6 arg7 harg7 hc0 hc1 x0 x1 x2 x3 x4 = k0_pay2 (k0_pay1 (F := F)) x0 := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S8x256) hz2, View.readCov_unit_zero (S := S8x256) _ hz2]
  simp only [View.readAt_eq_ld, harg2.read_unread, View.ld_unit_zero (S := S8x256x2048) hz3]

/-- SECOND HALF: the block of x is lane-summed into what the block held (`xo5`), and the gate of that total is stored over it. -/
theorem second_half (c : Dev nD) (i : grid0.Coords) (arg2 : Memref sig .tc .vmem S8x256x2048 .f32) (harg2 : arg2.IsWhole) (arg3 : Memref sig .tc .vmem S16x256 .f32) (harg3 : arg3.IsWhole) (arg4 : Memref sig .tc .vmem S16 .f32) (harg4 : arg4.IsWhole) (arg5 : Memref sig .tc .vmem S256x16 .f32) (harg5 : arg5.IsWhole) (arg6 : Memref sig .tc .vmem S256 .f32) (harg6 : arg6.IsWhole) (arg7 : Memref sig .tc .vmem S8x256 .f32) (harg7 : arg7.IsWhole) (hc0 : ¬cond0_0 i) (hc1 : cond0_1 i)
    (x0 : Vec F S8x256x2048 .f32) (x1 : Vec F S16x256 .f32) (x2 : Vec F S16 .f32) (x3 : Vec F S256x16 .f32) (x4 : Vec F S256 .f32) (xo5 : Vec F S8x256 .f32) :
    out0_B_5 c i arg2 harg2 arg3 harg3 arg4 harg4 arg5 harg5 arg6 harg6 arg7 harg7 hc0 hc1 x0 x1 x2 x3 x4 xo5 = k0_pay3 (k0_pay2 xo5 x0) x1 x2 x3 x4 := by
  unfold out0_B_5
  rw [View.read_writes_eq_canon _ _ _ (cover0_B_5 c i arg2 harg2 arg3 harg3 arg4 harg4 arg5 harg5 arg6 harg6 arg7 harg7 hc0 hc1 x0 x1 x2 x3 x4 xo5)]
  unfold kernelRun0_B
  dsimp only
  sl_unfold_words
  rw [View.canon_cons_unit_zero (S := S8x256) hz2, View.readCov_unit_zero (S := S8x256) _ hz2]
  simp only [View.readAt_eq_ld, harg2.read_unread, harg3.read_unread, harg4.read_unread, harg5.read_unread, harg6.read_unread,
    harg7.read_unread, View.ld_unit_zero (S := S8x256x2048) hz3, View.ld_unit_zero (S := S8x256) hz2,
    View.ld_unit_zero (S := S16x256) hz2, View.ld_unit_zero (S := S256x16) hz2, View.ld_unit_zero (S := S16) hz1,
    View.ld_unit_zero (S := S256) hz1]

/-! ## The three payloads read at an index, over the extended reals -/

open Idealize.ShloMosaic.ValueIdx
open scoped BigOperators

/-- Both matrix products contract the last axis of both operands (`mean @ w1ᵀ`, `h @ w2ᵀ`). -/
theorem lastAxis1 : MatmulLastAxis.IsLastAxis (M := 8) (N := 16) (K := 256) dot_S8x256_S16x256_S8x16_1_1_0_0_n_n :=
  ⟨rfl, rfl, rfl, rfl, rfl, rfl⟩
theorem lastAxis2 : MatmulLastAxis.IsLastAxis (M := 8) (N := 256) (K := 16) dot_S8x16_S256x16_S8x256_1_1_0_0_n_n :=
  ⟨rfl, rfl, rfl, rfl, rfl, rfl⟩

/-- The zero block. -/
theorem pay1_apply (r : Fin 8) (c : Fin 256) : k0_pay1 (F := Ideal) (ix2 r c) = Ideal.ofBits .f32 0x00000000#32 := rfl

/-- The accumulation: the block's entry plus the sum of x's block over the last coordinate. -/
theorem pay2_apply (acc : FVec Ideal S8x256 .f32) (x0 : FVec Ideal S8x256x2048 .f32) (r : Fin 8) (c : Fin 256) :
    k0_pay2 acc x0 (ix2 r c) = acc (ix2 r c) + ∑ l : Fin 2048, x0 (ix3 r c l) := by
  unfold k0_pay2
  rw [shapeCast_self]
  refine congrArg (acc (ix2 r c) + ·) ?_
  refine (Ideal.multiReduction_add_single x0 0x00000000#32 reduces_S8x256x2048_S8x256 (.inl rfl) rfl (ix2 r c)).trans ?_
  refine Finset.sum_congr rfl fun l _ => congrArg x0 (funext fun a => Fin.ext ?_)
  match a with
  | ⟨0, _⟩ => rfl
  | ⟨1, _⟩ => rfl
  | ⟨2, _⟩ => rfl

/-- The gate of a total `acc`: mean, first layer and relu, second layer, logistic. -/
theorem pay3_apply (acc : FVec Ideal S8x256 .f32) (w1 : FVec Ideal S16x256 .f32) (b1 : FVec Ideal S16 .f32)
    (w2 : FVec Ideal S256x16 .f32) (b2 : FVec Ideal S256 .f32) (r : Fin 8) (c : Fin 256) :
    k0_pay3 (F := Ideal) acc w1 b1 w2 b2 (ix2 r c)
      = Ideal.logistic (∑ q : Fin 16,
          max (∑ k : Fin 256, (acc (ix2 r k) * Ideal.ofBits .f32 0x39800000#32) * w1 (ix2 q k) + b1 (ix1 q))
            (Ideal.ofBits .f32 0x00000000#32) * w2 (ix2 c q) + b2 (ix1 c)) := by
  unfold k0_pay3
  simp only [matmul]
  show Ideal.logistic (FloatOps.matmul dot_S8x16_S256x16_S8x256_1_1_0_0_n_n none _ w2 (constant S8x256 .f32 0x00000000#32) (ix2 r c)
    + broadcastTo S8x256 (shapeCast S1x256 b2 shapeCasts_S256_S1x256) broadcasts_S1x256_S8x256 (ix2 r c)) = _
  rw [MatmulLastAxis.matmul_zero_apply lastAxis2, broadcastTo_1b_ab_apply, shapeCast_a_1a_apply]
  refine congrArg Ideal.logistic (congrArg (· + b2 (ix1 c)) (Finset.sum_congr rfl fun q _ => congrArg (· * w2 (ix2 c q)) ?_))
  show max (FloatOps.matmul dot_S8x256_S16x256_S8x16_1_1_0_0_n_n none _ w1 (constant S8x16 .f32 0x00000000#32) (ix2 r q)
    + broadcastTo S8x16 (shapeCast S1x16 b1 shapeCasts_S16_S1x16) broadcasts_S1x16_S8x16 (ix2 r q)) (Ideal.ofBits .f32 0x00000000#32) = _
  rw [MatmulLastAxis.matmul_zero_apply lastAxis1, broadcastTo_1b_ab_apply, shapeCast_a_1a_apply, shapeCast_self]
  rfl

end Cert.KernelIdeal.GateBody

end
-- ==== Proof.GateArray.lean ====
/-
  The first kernel's output array: the gates.

  Output block (t/2, 0) of the [64, 256] gate array stays in its staging buffer over the two points 2q and 2q + 1 and
  is written back after the second.  Point t reads block (t/2, 0, t mod 2) of x — rows 8·(t/2) … 8·(t/2)+7, all 256
  channels, coordinates 2048·(t mod 2) … of the last axis — and the four small arrays whole.  So after point 2q + 1
  the block holds, at (r, c), the gate of batch row 8q + r and channel c: the two half sums accumulated from zero are
  the sum over the whole last axis, and their product with 2⁻¹² is the mean (`Spec.pooled_of_halves`).  The blocks of
  the odd points tile the array — row b lies in the block of point 2·(b/8) + 1 — so the array ends at the gates.
-/
import proofs.«121550_j5970004542268_2_alg».proof.Proof.GateBody
import proofs.«121550_j5970004542268_2_alg».proof.Proof.Spec

noncomputable section

open Idealize.ShloMosaic Idealize.ShloMosaic.TcCoe Idealize.SL.Sem
open Idealize.ShloMosaic.Pipeline (Dat)

namespace Cert.KernelIdeal.GateArray

open Cert.KernelIdeal Cert.KernelIdeal.Gen Cert.KernelIdeal.GateBody Cert.SqueezeExcite Idealize.ShloMosaic.ValueIdx
open scoped BigOperators

/-- The second half's payload over the first half's, on blocks that are the two halves of rows `b` of `X` and on the small arrays
    whole, is the gate at `(b, k)`. -/
theorem gate_of_halves (xa xb : FVec Ideal S8x256x2048 .f32) (w1 : FVec Ideal S16x256 .f32) (b1 : FVec Ideal S16 .f32)
    (w2 : FVec Ideal S256x16 .f32) (b2 : FVec Ideal S256 .f32)
    (X : SX.Idx → EReal) (W1 : SW1.Idx → EReal) (B1 : SB1.Idx → EReal) (W2 : SW2.Idx → EReal) (B2 : SB2.Idx → EReal)
    (r : Fin 8) (k : Fin 256) (b : Fin 64)
    (hxa : ∀ (kk : Fin 256) (l : Fin 2048), xa (ix3 r kk l) = X (ix3 b kk ⟨l.val, Nat.lt_of_lt_of_le l.isLt (by decide)⟩))
    (hxb : ∀ (kk : Fin 256) (l : Fin 2048), xb (ix3 r kk l) = X (ix3 b kk ⟨2048 + l.val, by have := l.isLt; omega⟩))
    (hw1 : ∀ (q : Fin 16) (kk : Fin 256), w1 (ix2 q kk) = W1 (ix2 q kk)) (hb1 : ∀ q : Fin 16, b1 (ix1 q) = B1 (ix1 q))
    (hw2 : ∀ (cc : Fin 256) (q : Fin 16), w2 (ix2 cc q) = W2 (ix2 cc q)) (hb2 : ∀ cc : Fin 256, b2 (ix1 cc) = B2 (ix1 cc)) :
    k0_pay3 (F := Ideal) (k0_pay2 (F := Ideal) (k0_pay2 (F := Ideal) (k0_pay1 (F := Ideal)) xa) xb) w1 b1 w2 b2 (ix2 r k) = gate X W1 B1 W2 B2 b k := by
  have hs : ∀ kk : Fin 256, k0_pay2 (F := Ideal) (k0_pay2 (F := Ideal) (k0_pay1 (F := Ideal)) xa) xb (ix2 r kk) * Ideal.ofBits .f32 0x39800000#32
      = pooled X b kk := fun kk => by
    rw [pay2_apply, pay2_apply, pay1_apply, ← pooled_of_halves]
    simp only [hxa, hxb]
  rw [pay3_apply]
  unfold gate logit Cert.SqueezeExcite.hidden
  simp only [hs, hw1, hb1, hw2, hb2]

variable (V : (c : Dev nD) → (b : Ref sig .tc) → Buf (Elt Ideal) ((c : Thread nD τ).loc b))

/-- The printed index maps, decided once over the grid: x's block is (t/2, 0, t mod 2), the small arrays' are the
    zero block, the gate array's is (t/2, 0). -/
theorem idx0 : ∀ t : Fin cfg0.N, win0_0.index t (0 : Fin 3) = t.val / 2 ∧ win0_0.index t (1 : Fin 3) = 0
    ∧ win0_0.index t (2 : Fin 3) = t.val % 2
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val / 2 ∧ win0_5.index t (1 : Fin 2) = 0 :=
  (by decide +kernel : ∀ t : Fin grid0.N, _)

/-- x's block at point `t`, read off the array: row `8·(t/2) + r`, coordinate `2048·(t mod 2) + l`. -/
theorem blk_x (c : Dev nD) (t : Fin cfg0.N) (r : Fin 8) (k : Fin 256) (l : Fin 2048) (b : Fin 64) (l' : Fin 4096)
    (hb : b.val = 8 * (t.val / 2) + r.val) (hl : l'.val = 2048 * (t.val % 2) + l.val) :
    (iblk0 V c 0 t : Vec Ideal S8x256x2048 .f32) (ix3 r k l) = V c main_arg0 (ix3 b k l') := by
  obtain ⟨e0, e1, e2, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 3) * 8 + 1 * r.val = b.val; omega
  | ⟨1, _⟩ => show win0_0.index t (1 : Fin 3) * 256 + 1 * k.val = k.val; omega
  | ⟨2, _⟩ => show win0_0.index t (2 : Fin 3) * 2048 + 1 * l.val = l'.val; omega

/-- The four small arrays' blocks are the arrays. -/
theorem blk_w1 (c : Dev nD) (t : Fin cfg0.N) (q : Fin 16) (k : Fin 256) :
    (iblk0 V c 1 t : Vec Ideal S16x256 .f32) (ix2 q k) = V c main_arg1 (ix2 q k) := by
  obtain ⟨-, -, -, e3, e4, -⟩ := idx0 t
  unfold iblk0
  rw [View.read_apply]
  show V c main_arg1 _ = V c main_arg1 _
  refine congrArg (V c main_arg1) (funext fun a => Fin.ext ?_)
  match a with
  | ⟨0, _⟩ => show win0_1.index t (0 : Fin 2) * 16 + 1 * q.val = q.val; omega
  | ⟨1, _⟩ => show win0_1.index t (1 : Fin 2) * 256 + 1 * k.val = k.val; omega

theorem blk_b1 (c : Dev nD) (t : Fin cfg0.N) (q : Fin 16) :
    (iblk0 V c 2 t : Vec Ideal S16 .f32) (ix1 q) = V c main_arg2 (ix1 q) := by
  obtain ⟨-, -, -, -, -, e5, -⟩ := idx0 t
  unfold iblk0
  rw [View.read_apply]
  show V c main_arg2 _ = V c main_arg2 _
  refine congrArg (V c main_arg2) (funext fun a => Fin.ext ?_)
  match a with
  | ⟨0, _⟩ => show win0_2.index t (0 : Fin 1) * 16 + 1 * q.val = q.val; omega

theorem blk_w2 (c : Dev nD) (t : Fin cfg0.N) (k : Fin 256) (q : Fin 16) :
    (iblk0 V c 3 t : Vec Ideal S256x16 .f32) (ix2 k q) = V c main_arg3 (ix2 k q) := by
  obtain ⟨-, -, -, -, -, -, e6, e7, -⟩ := idx0 t
  unfold iblk0
  rw [View.read_apply]
  show V c main_arg3 _ = V c main_arg3 _
  refine congrArg (V c main_arg3) (funext fun a => Fin.ext ?_)
  match a with
  | ⟨0, _⟩ => show win0_3.index t (0 : Fin 2) * 256 + 1 * k.val = k.val; omega
  | ⟨1, _⟩ => show win0_3.index t (1 : Fin 2) * 16 + 1 * q.val = q.val; omega

theorem blk_b2 (c : Dev nD) (t : Fin cfg0.N) (k : Fin 256) :
    (iblk0 V c 4 t : Vec Ideal S256 .f32) (ix1 k) = V c main_arg4 (ix1 k) := by
  obtain ⟨-, -, -, -, -, -, -, -, e8, -⟩ := idx0 t
  unfold iblk0
  rw [View.read_apply]
  show V c main_arg4 _ = V c main_arg4 _
  refine congrArg (V c main_arg4) (funext fun a => Fin.ext ?_)
  match a with
  | ⟨0, _⟩ => show win0_4.index t (0 : Fin 1) * 256 + 1 * k.val = k.val; omega

/-- After the second half at point `t` the staging block holds the gates of batch rows `8·(t/2) … 8·(t/2)+7`. -/
theorem block_gate (c : Dev nD) (t : Fin cfg0.N) (ht : t.val % 2 = 1) (r : Fin 8) (k : Fin 256) (b : Fin 64)
    (hb : b.val = 8 * (t.val / 2) + r.val) :
    (outsAt0 V c t.val t.isLt : Vec Ideal S8x256 .f32) (ix2 r k)
      = gate (V c main_arg0) (V c main_arg1) (V c main_arg2) (V c main_arg3) (V c main_arg4) b k := by
  have hN : t.val < 16 := lt_of_lt_of_eq t.isLt (show cfg0.N = 16 from N_0)
  have h0 : ¬t.val % 2 = 0 := by omega
  have hp : t.val - 1 < cfg0.N := Nat.lt_of_le_of_lt (Nat.sub_le _ _) t.isLt
  have hp0 : (⟨t.val - 1, hp⟩ : Fin cfg0.N).val % 2 = 0 := by show (t.val - 1) % 2 = 0; omega
  have hp1 : ¬(⟨t.val - 1, hp⟩ : Fin cfg0.N).val % 2 = 1 := by show ¬(t.val - 1) % 2 = 1; omega
  have hhalf : (t.val - 1) / 2 = t.val / 2 := by omega
  have hpm : (t.val - 1) % 2 = 0 := by omega
  rw [outsAt0_B V c t h0 ht, second_half]
  rw [show outsAt0 V c (t.val - 1) (Nat.lt_of_le_of_lt (Nat.sub_le _ _) t.isLt)
    = outsAt0 V c (⟨t.val - 1, hp⟩ : Fin cfg0.N).val (⟨t.val - 1, hp⟩ : Fin cfg0.N).isLt from rfl,
    outsAt0_A V c ⟨t.val - 1, hp⟩ hp0 hp1, first_half]
  exact gate_of_halves (iblk0 V c 0 ⟨t.val - 1, hp⟩) (iblk0 V c 0 t) (iblk0 V c 1 t) (iblk0 V c 2 t) (iblk0 V c 3 t) (iblk0 V c 4 t)
    (V c main_arg0) (V c main_arg1) (V c main_arg2) (V c main_arg3) (V c main_arg4) r k b
    (fun kk l => blk_x V c ⟨t.val - 1, hp⟩ r kk l b _ (by show b.val = 8 * ((t.val - 1) / 2) + r.val; omega)
      (by show l.val = 2048 * ((t.val - 1) % 2) + l.val; omega))
    (fun kk l => blk_x V c t r kk l b _ hb (by show 2048 + l.val = 2048 * (t.val % 2) + l.val; omega))
    (fun q kk => blk_w1 V c t q kk) (fun q => blk_b1 V c t q) (fun cc q => blk_w2 V c t cc q) (fun cc => blk_b2 V c t cc)

/-- WHAT A FLUSHING POINT WRITES BACK is its block of the gate array. -/
theorem flushed_gate (c : Dev nD) (t : Fin cfg0.N) (hf : (cfg0.win 5).flush t = true) :
    (dat0 V c).flushed 5 t = ((cfg0.win 5).blk t).view.read (Elt Ideal)
      (gates (V c main_arg0) (V c main_arg1) (V c main_arg2) (V c main_arg3) (V c main_arg4)) := by
  have ht : t.val % 2 = 1 := (flush0_5 t).mp hf
  have hN : t.val < 16 := lt_of_lt_of_eq t.isLt (show cfg0.N = 16 from N_0)
  obtain ⟨-, -, -, -, -, -, -, -, -, e9, e10⟩ := idx0 t
  show (cfg0.win 5).cut (grid0.coords t) ((dat0 V c).after 5 t) = _
  rw [after0_5]
  funext j
  obtain ⟨r, k, rfl⟩ : ∃ (r : Fin 8) (k : Fin 256), j = ix2 r k := ⟨j 0, j 1, eq_ix2 j⟩
  refine (block_gate V c t ht r k ⟨8 * (t.val / 2) + r.val, by have := r.isLt; omega⟩ rfl).trans ?_
  rw [View.read_apply]
  show gate _ _ _ _ _ _ _ = gate _ _ _ _ _ _ _
  congr 1
  · apply Fin.ext
    show 8 * (t.val / 2) + r.val = win0_5.index t (0 : Fin 2) * 8 + 1 * r.val
    omega
  · apply Fin.ext
    show k.val = win0_5.index t (1 : Fin 2) * 256 + 1 * k.val
    omega

/-- An index of the gate array is in point `t`'s block iff each coordinate is in the block's range on its axis. -/
theorem mem_blk_gate (t : Fin cfg0.N) (i : S64x256.Idx) :
    i ∈ ((cfg0.win 5).blk t).view.set ↔ ∀ a : Fin 2, win0_5.index t a * S8x256.size a ≤ (i a).val
      ∧ (i a).val < win0_5.index t a * S8x256.size a + S8x256.size a := by
  show i ∈ ((View.whole main_v0).slice (win0_5.rect t)).set ↔ _
  rw [View.set_slice_whole, Rect.mem_set_unit]
  exact Iff.rfl

/-- Every entry of the gate array is in the block of a flushing point: row `b` in that of point `2·(b/8) + 1`. -/
theorem cover_gate (i : S64x256.Idx) :
    ∃ t : Fin cfg0.N, (cfg0.win 5).flush t = true ∧ i ∈ ((cfg0.win 5).blk t).view.set := by
  have hi0 : (i 0).val < 64 := (i 0).isLt
  have hi1 : (i 1).val < 256 := (i 1).isLt
  have hN : cfg0.N = 16 := N_0
  have hlt : 2 * ((i 0).val / 8) + 1 < cfg0.N := by rw [hN]; omega
  obtain ⟨-, -, -, -, -, -, -, -, -, e9, e10⟩ := idx0 ⟨2 * ((i 0).val / 8) + 1, hlt⟩
  have e9' : win0_5.index ⟨2 * ((i 0).val / 8) + 1, hlt⟩ (0 : Fin 2) = (2 * ((i 0).val / 8) + 1) / 2 := e9
  refine ⟨⟨2 * ((i 0).val / 8) + 1, hlt⟩, (flush0_5 _).mpr (by show (2 * ((i 0).val / 8) + 1) % 2 = 1; omega), ?_⟩
  rw [mem_blk_gate]
  intro a
  match a with
  | ⟨0, _⟩ =>
    show win0_5.index ⟨2 * ((i 0).val / 8) + 1, hlt⟩ (0 : Fin 2) * 8 ≤ (i 0).val
      ∧ (i 0).val < win0_5.index ⟨2 * ((i 0).val / 8) + 1, hlt⟩ (0 : Fin 2) * 8 + 8
    omega
  | ⟨1, _⟩ =>
    show win0_5.index ⟨2 * ((i 0).val / 8) + 1, hlt⟩ (1 : Fin 2) * 256 ≤ (i 1).val
      ∧ (i 1).val < win0_5.index ⟨2 * ((i 0).val / 8) + 1, hlt⟩ (1 : Fin 2) * 256 + 256
    omega

/-- THE GATE ARRAY after the first kernel: the gates of the arrays the region found. -/
theorem final_gate (c : Dev nD) :
    (dat0 V c).arrAt 5 cfg0.N = gates (V c main_arg0) (V c main_arg1) (V c main_arg2) (V c main_arg3) (V c main_arg4) :=
  (dat0 V c).arrAt_eq_of_cover 5 _ (flushed_gate V c) cover_gate

end Cert.KernelIdeal.GateArray

end
-- ==== Proof.LibTrailingUnitAxis.lean ====
/-
  A trailing unit axis added by a shape cast and then spread by a broadcast, read at an index: the layout of
  `x[:, :, None]` broadcast along a new last axis.

  An `[a, b]` array cast to `[a, b, 1]` reads, at `(i, j, u)`, the operand at `(i, j)`: the two indices have the same
  row-major position, the unit coordinate being zero.  An `[a, b, 1]` array broadcast to `[a, b, n]` reads, at
  `(i, j, l)`, the operand at `(i, j, 0)`: the first two axes are kept and the unit axis is repeated.  Composed, the cast
  then the broadcast of `g` read `g (i, j)` at every `(i, j, l)`.
-/
import Idealize.ShloMosaic.Lib.Pipeline.Value
import Idealize.ShloMosaic.Lib.ValueIdx

noncomputable section

namespace Idealize.ShloMosaic.TrailingUnitAxis

open Idealize.ShloMosaic Idealize.ShloMosaic.ValueIdx

variable {α : Type}

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, n]` reads, at `(i, j, l)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The cast then the broadcast: `g` repeated along the new last axis. -/
theorem broadcastTo_shapeCast_apply {a b n : ℕ} (g : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (i : Fin a) (j : Fin b) (l : Fin n) :
    broadcastTo ⟨3, ![a, b, n]⟩ (shapeCast ⟨3, ![a, b, 1]⟩ g hc) hb (ix3 i j l) = g (ix2 i j) := by
  rw [broadcastTo_ab1_abn_apply, shapeCast_ab_ab1_apply]

end Idealize.ShloMosaic.TrailingUnitAxis

end
-- ==== Proof.ScaleArray.lean ====
/-
  The second kernel's output array: x scaled by the gates.

  The grid is (block of 8 batch entries, quarter of the last axis).  Point t reads block (t/4, 0, t mod 4) of x and
  block (t/4, 0) of the gate array, and stores over its output block, in one store, the block of x times the gate
  block repeated along a new last axis (a cast to [8, 256, 1], then a broadcast to [8, 256, 1024]).  Every point
  writes its block back, and the blocks tile the [64, 256, 4096] result — entry (b, c, l) lies in the block of point
  4·(b/8) + l/1024 — so the result ends, entry by entry, at x (b, c, l) · gate array (b, c), for the x and the gate
  array this kernel found when it was entered.
-/
import proofs.«121550_j5970004542268_2_alg».proof.Proof.GateBody
import proofs.«121550_j5970004542268_2_alg».proof.Proof.LibTrailingUnitAxis
import proofs.«121550_j5970004542268_2_alg».proof.Proof.Spec

noncomputable section

open Idealize.ShloMosaic Idealize.ShloMosaic.TcCoe Idealize.SL.Sem
open Idealize.ShloMosaic.Pipeline (Dat)

namespace Cert.KernelIdeal.ScaleArray

open Cert.KernelIdeal Cert.KernelIdeal.Gen Cert.KernelIdeal.GateBody Cert.SqueezeExcite Idealize.ShloMosaic.ValueIdx

/-- Every entry of `X` times the entry of `G` at its first two coordinates. -/
def scaleBy (X : SX.Idx → EReal) (G : SG.Idx → EReal) : SX.Idx → EReal :=
  fun i => X i * G (ix2 ⟨(i 0).val, (i 0).isLt⟩ ⟨(i 1).val, (i 1).isLt⟩)

/-- Scaling by the gate array of the specification is the specification's result. -/
theorem scaleBy_gates (X : SX.Idx → EReal) (W1 : SW1.Idx → EReal) (B1 : SB1.Idx → EReal) (W2 : SW2.Idx → EReal) (B2 : SB2.Idx → EReal) :
    scaleBy X (gates X W1 B1 W2 B2) = scaled X W1 B1 W2 B2 := rfl

variable {F : FTy → Type} [FloatOps F]

/-- The body's one store covers the block: it leaves its payload, whose loads read the two input blocks whole. -/
theorem out_scale (x0 : Vec F S8x256x1024 .f32) (x1 : Vec F S8x256 .f32) : out1_2 x0 x1 = k1_pay1 x1 x0 := by
  unfold out1_2
  rw [View.canon_unit_zero hz3]
  simp only [View.ld_unit_zero (S := S8x256) hz2, View.ld_unit_zero (S := S8x256x1024) hz3]

/-- The payload at an entry: the block of x times the gate block's entry at its first two coordinates. -/
theorem pay_scale_apply (g : FVec Ideal S8x256 .f32) (x : FVec Ideal S8x256x1024 .f32) (r : Fin 8) (k : Fin 256) (l : Fin 1024) :
    k1_pay1 (F := Ideal) g x (ix3 r k l) = x (ix3 r k l) * g (ix2 r k) := by
  unfold k1_pay1
  rw [shapeCast_self]
  show x (ix3 r k l) * broadcastTo S8x256x1024 (shapeCast S8x256x1 g shapeCasts_S8x256_S8x256x1) broadcasts_S8x256x1_S8x256x1024 (ix3 r k l) = _
  rw [TrailingUnitAxis.broadcastTo_shapeCast_apply]

variable (V : (c : Dev nD) → (b : Ref sig .tc) → Buf (Elt Ideal) ((c : Thread nD τ).loc b))

/-- The printed index maps, decided once over the grid. -/
theorem idx1 : ∀ t : Fin cfg1.N, win1_0.index t (0 : Fin 3) = t.val / 4 ∧ win1_0.index t (1 : Fin 3) = 0
    ∧ win1_0.index t (2 : Fin 3) = t.val % 4
    ∧ win1_1.index t (0 : Fin 2) = t.val / 4 ∧ win1_1.index t (1 : Fin 2) = 0
    ∧ win1_2.index t (0 : Fin 3) = t.val / 4 ∧ win1_2.index t (1 : Fin 3) = 0 ∧ win1_2.index t (2 : Fin 3) = t.val % 4 :=
  (by decide +kernel : ∀ t : Fin grid1.N, _)

/-- x's block at point `t`, read off the array: row `8·(t/4) + r`, coordinate `1024·(t mod 4) + l`. -/
theorem blk1_x (c : Dev nD) (t : Fin cfg1.N) (r : Fin 8) (k : Fin 256) (l : Fin 1024) (b : Fin 64) (l' : Fin 4096)
    (hb : b.val = 8 * (t.val / 4) + r.val) (hl : l'.val = 1024 * (t.val % 4) + l.val) :
    (iblk1 V c 0 t : Vec Ideal S8x256x1024 .f32) (ix3 r k l) = V c main_arg0 (ix3 b k l') := by
  obtain ⟨e0, e1, e2, -⟩ := idx1 t
  unfold iblk1
  rw [View.read_apply]
  show V c main_arg0 _ = V c main_arg0 _
  refine congrArg (V c main_arg0) (funext fun a => Fin.ext ?_)
  match a with
  | ⟨0, _⟩ => show win1_0.index t (0 : Fin 3) * 8 + 1 * r.val = b.val; omega
  | ⟨1, _⟩ => show win1_0.index t (1 : Fin 3) * 256 + 1 * k.val = k.val; omega
  | ⟨2, _⟩ => show win1_0.index t (2 : Fin 3) * 1024 + 1 * l.val = l'.val; omega

/-- The gate array's block at point `t`: row `8·(t/4) + r`. -/
theorem blk1_g (c : Dev nD) (t : Fin cfg1.N) (r : Fin 8) (k : Fin 256) (b : Fin 64) (hb : b.val = 8 * (t.val / 4) + r.val) :
    (iblk1 V c 1 t : Vec Ideal S8x256 .f32) (ix2 r k) = V c main_v0 (ix2 b k) := by
  obtain ⟨-, -, -, e3, e4, -⟩ := idx1 t
  unfold iblk1
  rw [View.read_apply]
  show V c main_v0 _ = V c main_v0 _
  refine congrArg (V c main_v0) (funext fun a => Fin.ext ?_)
  match a with
  | ⟨0, _⟩ => show win1_1.index t (0 : Fin 2) * 8 + 1 * r.val = b.val; omega
  | ⟨1, _⟩ => show win1_1.index t (1 : Fin 2) * 256 + 1 * k.val = k.val; omega

/-- WHAT POINT `t` WRITES BACK is its block of `x` scaled by the gate array the region found. -/
theorem flushed_scale (c : Dev nD) (t : Fin cfg1.N) :
    (dat1 V c).flushed 2 t = ((cfg1.win 2).blk t).view.read (Elt Ideal) (scaleBy (V c main_arg0) (V c main_v0)) := by
  have hN : t.val < 32 := lt_of_lt_of_eq t.isLt (show cfg1.N = 32 from N_1)
  obtain ⟨-, -, -, -, -, e5, e6, e7⟩ := idx1 t
  show (cfg1.win 2).cut (grid1.coords t) ((dat1 V c).after 2 t) = _
  rw [after1_2, out_scale]
  funext j
  obtain ⟨r, k, l, rfl⟩ : ∃ (r : Fin 8) (k : Fin 256) (l : Fin 1024), j = ix3 r k l := ⟨j 0, j 1, j 2, eq_ix3 j⟩
  have hr := r.isLt
  have hl := l.isLt
  refine (pay_scale_apply (iblk1 V c 1 t) (iblk1 V c 0 t) r k l).trans ?_
  rw [blk1_x V c t r k l ⟨8 * (t.val / 4) + r.val, by omega⟩ ⟨1024 * (t.val % 4) + l.val, by omega⟩ rfl rfl,
    blk1_g V c t r k ⟨8 * (t.val / 4) + r.val, by omega⟩ rfl, View.read_apply]
  have hemb : ((cfg1.win 2).blk t).view.emb (ix3 r k l)
      = ix3 (⟨8 * (t.val / 4) + r.val, by omega⟩ : Fin 64) k (⟨1024 * (t.val % 4) + l.val, by omega⟩ : Fin 4096) :=
    funext fun a => Fin.ext (by
      match a with
      | ⟨0, _⟩ => show win1_2.index t (0 : Fin 3) * 8 + 1 * r.val = 8 * (t.val / 4) + r.val; omega
      | ⟨1, _⟩ => show win1_2.index t (1 : Fin 3) * 256 + 1 * k.val = k.val; omega
      | ⟨2, _⟩ => show win1_2.index t (2 : Fin 3) * 1024 + 1 * l.val = 1024 * (t.val % 4) + l.val; omega)
  rw [hemb]
  rfl

/-- An index of the result is in point `t`'s block iff each coordinate is in the block's range on its axis. -/
theorem mem_blk_scale (t : Fin cfg1.N) (i : S64x256x4096.Idx) :
    i ∈ ((cfg1.win 2).blk t).view.set ↔ ∀ a : Fin 3, win1_2.index t a * S8x256x1024.size a ≤ (i a).val
      ∧ (i a).val < win1_2.index t a * S8x256x1024.size a + S8x256x1024.size a := by
  show i ∈ ((View.whole main_v1).slice (win1_2.rect t)).set ↔ _
  rw [View.set_slice_whole, Rect.mem_set_unit]
  exact Iff.rfl

/-- Every entry of the result is in some point's block: entry (b, c, l) in that of point `4·(b/8) + l/1024`. -/
theorem cover_scale (i : S64x256x4096.Idx) :
    ∃ t : Fin cfg1.N, (cfg1.win 2).flush t = true ∧ i ∈ ((cfg1.win 2).blk t).view.set := by
  have hi0 : (i 0).val < 64 := (i 0).isLt
  have hi1 : (i 1).val < 256 := (i 1).isLt
  have hi2 : (i 2).val < 4096 := (i 2).isLt
  have hN : cfg1.N = 32 := N_1
  have hlt : 4 * ((i 0).val / 8) + (i 2).val / 1024 < cfg1.N := by rw [hN]; omega
  obtain ⟨-, -, -, -, -, e5, e6, e7⟩ := idx1 ⟨4 * ((i 0).val / 8) + (i 2).val / 1024, hlt⟩
  have e5' : win1_2.index ⟨4 * ((i 0).val / 8) + (i 2).val / 1024, hlt⟩ (0 : Fin 3) = (4 * ((i 0).val / 8) + (i 2).val / 1024) / 4 := e5
  have e7' : win1_2.index ⟨4 * ((i 0).val / 8) + (i 2).val / 1024, hlt⟩ (2 : Fin 3) = (4 * ((i 0).val / 8) + (i 2).val / 1024) % 4 := e7
  refine ⟨⟨4 * ((i 0).val / 8) + (i 2).val / 1024, hlt⟩, flush1_2 _, ?_⟩
  rw [mem_blk_scale]
  intro a
  match a with
  | ⟨0, _⟩ =>
    show win1_2.index ⟨4 * ((i 0).val / 8) + (i 2).val / 1024, hlt⟩ (0 : Fin 3) * 8 ≤ (i 0).val
      ∧ (i 0).val < win1_2.index ⟨4 * ((i 0).val / 8) + (i 2).val / 1024, hlt⟩ (0 : Fin 3) * 8 + 8
    omega
  | ⟨1, _⟩ =>
    show win1_2.index ⟨4 * ((i 0).val / 8) + (i 2).val / 1024, hlt⟩ (1 : Fin 3) * 256 ≤ (i 1).val
      ∧ (i 1).val < win1_2.index ⟨4 * ((i 0).val / 8) + (i 2).val / 1024, hlt⟩ (1 : Fin 3) * 256 + 256
    omega
  | ⟨2, _⟩ =>
    show win1_2.index ⟨4 * ((i 0).val / 8) + (i 2).val / 1024, hlt⟩ (2 : Fin 3) * 1024 ≤ (i 2).val
      ∧ (i 2).val < win1_2.index ⟨4 * ((i 0).val / 8) + (i 2).val / 1024, hlt⟩ (2 : Fin 3) * 1024 + 1024
    omega

/-- THE RESULT ARRAY after the second kernel: the `x` the region found, scaled by the gate array it found. -/
theorem final_scale (c : Dev nD) : (dat1 V c).arrAt 2 cfg1.N = scaleBy (V c main_arg0) (V c main_v0) :=
  (dat1 V c).arrAt_eq_of_cover 2 _ (fun t _ => flushed_scale V c t) cover_scale

end Cert.KernelIdeal.ScaleArray

end
-- ==== Proof.KernelValue.lean ====
/-
  The kernel's result, as the specification of the launch arrays.

  The second kernel is entered with x as launched — the first kernel only reads it — and with the gate array the
  first kernel left: the gates of the launch arrays.  It leaves the result array at x scaled by that gate array,
  which is the specification's result.  The run ends with every unscoped buffer at the fold of the two regions, so
  the result buffer ends at that array and the five arguments as launched.
-/
import proofs.«121550_j5970004542268_2_alg».proof.Proof.RunFold
import proofs.«121550_j5970004542268_2_alg».proof.Proof.GateArray
import proofs.«121550_j5970004542268_2_alg».proof.Proof.ScaleArray

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.SqueezeExcite

variable (m : (ℓ : Loc nD τ sig) → Buf (Elt Ideal) ℓ) (ρ : Dev nD → PrngReg)

/-- The specification's result of the five launch arrays on core `c`. -/
abbrev spec (c : Dev nD) : SX.Idx → EReal :=
  scaled (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The second kernel finds x as launched: the first kernel reads it through an input window. -/
theorem entry_x (c : Dev nD) : V1 m ρ c main_arg0 = m ((c : Thread nD τ).loc main_arg0) :=
  (W1_arr m ρ c 0).trans (((dat0 (V0 m ρ) c).arrAt_in 0 rfl _).trans (A_eq0 (V0 m ρ) c 0))

/-- The second kernel finds the gate array at the gates of the launch arrays. -/
theorem entry_gates (c : Dev nD) : V1 m ρ c main_v0
    = gates (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) :=
  (W1_arr m ρ c 5).trans (GateArray.final_gate (V0 m ρ) c)

/-- The fold of the two regions at the result buffer is the specification's result. -/
theorem result_eq (c : Dev nD) : W2 m ρ c (Proc.devRef .tc main_v1) = spec m c := by
  refine (W2_arr m ρ c 2).trans ((ScaleArray.final_scale (V1 m ρ) c).trans ?_)
  rw [entry_x, entry_gates]
  exact ScaleArray.scaleBy_gates _ _ _ _ _

/-- The run, read: the result at the specification, the five arguments as launched. -/
theorem run : θ_run defs (onTc (τ := τ) (main (F := Ideal))) ⟨m, fun _ => 0, ρ⟩ (fun r => ∀ c : Dev nD,
      r.2.mem ((c.tc : Thread nD τ).loc main_v1) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(RunFold.run_fold_at m ρ h c main_v1 (by decide)).trans (result_eq m ρ c),
     (RunFold.run_fold_at m ρ h c main_arg0 (by decide)).trans (W2_main_arg0 m ρ c),
     (RunFold.run_fold_at m ρ h c main_arg1 (by decide)).trans (W2_main_arg1 m ρ c),
     (RunFold.run_fold_at m ρ h c main_arg2 (by decide)).trans (W2_main_arg2 m ρ c),
     (RunFold.run_fold_at m ρ h c main_arg3 (by decide)).trans (W2_main_arg3 m ρ c),
     (RunFold.run_fold_at m ρ h c main_arg4 (by decide)).trans (W2_main_arg4 m ρ c)⟩)
    (RunFold.run_fold m ρ)

end Cert.KernelIdeal.KernelValue

end
-- ==== Proof.lean ====
/-
  A squeeze-and-excitation block: the two-kernel program equals its jnp reference over the extended reals.

  Both programs compute, from x : [64, 256, 4096] and two small dense layers, the gate of every (batch entry, channel)
  — the logistic function of the second layer applied to the relu of the first layer applied to the channel's mean over
  the last axis — and return x with every channel scaled by its gate (`Spec.scaled`).  The reference does it in one
  pass of host operations; the kernel in two: a first kernel sums the last axis in two halves into a block it keeps
  across the two grid steps, multiplies the total by 2⁻¹² and runs both layers on the last step (`GateBody`,
  `GateArray`), and a second kernel multiplies every block of x by its block of gates (`ScaleArray`).  They agree
  because a sum over 4096 coordinates is the sum of its two halves and the product with 2⁻¹² is the quotient by 4096,
  on every extended real: no finiteness of the inputs is used.  The kernel's logistic and the reference's
  1 / (1 + e^(−·)) are one function by definition.
  The three frames are the generated ones (the reference's is its generated run with the result dropped); the ideal
  pass rewrote nothing, so the kernel's idealization is the kernel's own text.
-/
import proofs.«121550_j5970004542268_2_alg».proof.Defs
import proofs.«121550_j5970004542268_2_alg».proof.Proof.Gen.Kernel
import proofs.«121550_j5970004542268_2_alg».proof.Proof.Gen.Kernel.Skeleton
import proofs.«121550_j5970004542268_2_alg».proof.Proof.Gen.Kernel.Launch
import proofs.«121550_j5970004542268_2_alg».proof.Proof.Gen.Kernel.Points
import proofs.«121550_j5970004542268_2_alg».proof.Proof.Gen.Kernel.Frame
import proofs.«121550_j5970004542268_2_alg».proof.Proof.Gen.KernelIdeal
import proofs.«121550_j5970004542268_2_alg».proof.Proof.Gen.KernelIdeal.Skeleton
import proofs.«121550_j5970004542268_2_alg».proof.Proof.Gen.KernelIdeal.Launch
import proofs.«121550_j5970004542268_2_alg».proof.Proof.Gen.KernelIdeal.Points
import proofs.«121550_j5970004542268_2_alg».proof.Proof.Gen.KernelIdeal.Frame
import proofs.«121550_j5970004542268_2_alg».proof.Proof.Gen.ReferenceIdeal
import proofs.«121550_j5970004542268_2_alg».proof.Proof.Gen.Pre_finite_inputs
import proofs.«121550_j5970004542268_2_alg».proof.Proof.Gen.ReferenceIdeal.Run
import proofs.«121550_j5970004542268_2_alg».proof.Proof.Gen.ReferenceIdeal.Read
import proofs.«121550_j5970004542268_2_alg».proof.Proof.RefValue
import proofs.«121550_j5970004542268_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end at the specification's result of arrays that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
